-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S259x128 : Shape := ⟨2, ![259, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S259x128 .f32) (main_arg9 : FVec F S128 .f32) (main_arg10 : FVec F S128 .f32) (main_arg11 : FVec F S128 .f32) (main_arg12 : FVec F S128x1 .f32) (main_arg13 : FVec F S1 .f32) (main_v33 : IVec S_ 1) : IVec S_ 1 :=
  let main_v34 : FVec F S259x128 .f32 := Host.absf main_arg8
  let main_cst_12 : FVec F S_ .f32 := constant S_ .f32 0x7F800000#32
  let main_v35 : FVec F S259x128 .f32 := broadcastInDim S259x128 ![] bcast_S_S259x128 main_cst_12
  let main_v36 : IVec S259x128 1 := cmpf .olt main_v34 main_v35
  let main_c_13 : IVec S_ 1 := constantI S_ 1 1#1
  let main_v37 : IVec S_ 1 := (fun x v => Host.reduce IntOp.andi x v reducesTo_S259x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S100000 .f32) (main_arg6 : FVec F S100000 .f32) (main_arg7 : FVec F S100000 .f32) (main_arg8 : FVec F S259x128 .f32) (main_arg9 : FVec F S128 .f32) (main_arg10 : FVec F S128 .f32) (main_arg11 : FVec F S128 .f32) (main_arg12 : FVec F S128x1 .f32) (main_arg13 : FVec F S1 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg5
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S100000 .f32 := Host.absf main_arg6
  let main_cst_8 : FVec F S_ .f32 := constant S_ .f32 0x7F800000#32
  let main_v25 : FVec F S100000 .f32 := broadcastInDim S100000 ![] bcast_S_S100000 main_cst_8
  let main_v26 : IVec S100000 1 := cmpf .olt main_v24 main_v25
  let main_c_9 : IVec S_ 1 := constantI S_ 1 1#1
  let main_v27 : IVec S_ 1 := (fun x v => Host.reduce IntOp.andi x v reducesTo_S100000_S_d0 h_S_) main_v26 main_c_9
  let main_v28 : IVec S_ 1 := andi main_v23 main_v27
  let main_v29 : FVec F S100000 .f32 := Host.absf main_arg7
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1000000 32) (main_arg2 : FVec F S100000 .f32) (main_arg3 : FVec F S100000 .f32) (main_arg4 : FVec F S100000 .f32) (main_arg5 : FVec F S100000 .f32) (main_arg6 : FVec F S100000 .f32) (main_arg7 : FVec F S100000 .f32) (main_arg8 : FVec F S259x128 .f32) (main_arg9 : FVec F S128 .f32) (main_arg10 : FVec F S128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S259x128 : Shape := ⟨2, ![259, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S128x128 : Shape := ⟨2, ![128, 128]⟩
abbrev S1x128 : Shape := ⟨2, ![1, 128]⟩
abbrev S1000000x128 : Shape := ⟨2, ![1000000, 128]⟩
abbrev S1015808x128 : Shape := ⟨2, ![1015808, 128]⟩
abbrev S1x1015808 : Shape := ⟨2, ![1, 1015808]⟩
abbrev S16384x128 : Shape := ⟨2, ![16384, 128]⟩
abbrev S1x16384 : Shape := ⟨2, ![1, 16384]⟩
abbrev S16384 : Shape := ⟨1, ![16384]⟩
abbrev S16384x1 : Shape := ⟨2, ![16384, 1]⟩
abbrev S1x1 : Shape := ⟨2, ![1, 1]⟩
abbrev S1015808 : Shape := ⟨1, ![1015808]⟩

abbrev nBuf : Space → Nat
  | .hbm => 159
  | .vmem => 8
  | .smem => 0
  | _ => 0

abbrev hbmTy0_0 (i : Nat) : BufTy := match i % 128 with
  | 0 => ⟨S100000x128, .f32⟩
  | 1 => ⟨S2x1000000, .i32⟩
  | 2 => ⟨S100000, .f32⟩
  | 3 => ⟨S100000, .f32⟩
  | 4 => ⟨S100000, .f32⟩
  | 5 => ⟨S100000, .f32⟩
  | 6 => ⟨S100000, .f32⟩
  | 7 => ⟨S100000, .f32⟩
  | 8 => ⟨S259x128, .f32⟩
  | 9 => ⟨S128, .f32⟩
  | 10 => ⟨S128, .f32⟩
  | 11 => ⟨S128, .f32⟩
  | 12 => ⟨S128x1, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S100000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S1000000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S100000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000, .f32⟩
  | 71 => ⟨S1000000, .i1⟩
  | 72 => ⟨S1000000, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S128x128, .f32⟩
  | 97 => ⟨S128x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S100000x128, .f32⟩
  | 105 => ⟨S100000x128, .bf16⟩
  | 106 => ⟨S100000x128, .f32⟩
  | 107 => ⟨S100000x128, .bf16⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x128, .bf16⟩
  | 117 => ⟨S1000000x128, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .bf16⟩
  | 127 => ⟨S1000000x128, .f32⟩
  | _ => ⟨S100000x128, .f32⟩

abbrev hbmTy0_1 (i : Nat) : BufTy := match i % 128 with
  | 0 => ⟨S1000000x128, .f32⟩
  | 1 => ⟨S1000000x1, .f32⟩
  | 2 => ⟨S1x128, .f32⟩
  | 3 => ⟨S1000000x128, .f32⟩
  | 4 => ⟨S1000000x128, .f32⟩
  | 5 => ⟨S1000000x128, .f32⟩
  | 6 => ⟨S1000000x128, .f32⟩
  | 7 => ⟨S1000000x1, .f32⟩
  | 8 => ⟨S1x128, .f32⟩
  | 9 => ⟨S1000000x128, .f32⟩
  | 10 => ⟨S1000000x128, .f32⟩
  | 11 => ⟨S1000000x128, .f32⟩
  | 12 => ⟨S1000000x128, .f32⟩
  | 13 => ⟨S1000000x1, .f32⟩
  | 14 => ⟨S1x128, .f32⟩
  | 15 => ⟨S1000000x128, .f32⟩
  | 16 => ⟨S1000000x128, .f32⟩
  | 17 => ⟨S1000000x128, .f32⟩
  | 18 => ⟨S1000000x128, .f32⟩
  | 19 => ⟨S1x128, .f32⟩
  | 20 => ⟨S1000000x128, .f32⟩
  | 21 => ⟨S1000000x128, .f32⟩
  | 22 => ⟨S1000000x128, .bf16⟩
  | 23 => ⟨S_, .i32⟩
  | 24 => ⟨S_, .bf16⟩
  | 25 => ⟨S1015808x128, .bf16⟩
  | 26 => ⟨S1x128, .f32⟩
  | 27 => ⟨S1x128, .bf16⟩
  | 28 => ⟨S1x1015808, .f32⟩
  | 29 => ⟨S1015808, .f32⟩
  | 30 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S128, .f32⟩
  | .local _ .vmem, ⟨3, _⟩ => ⟨S128, .f32⟩
  | .local _ .vmem, ⟨4, _⟩ => ⟨S1x128, .bf16⟩
  | .local _ .vmem, ⟨5, _⟩ => ⟨S1, .f32⟩
  | .local _ .vmem, ⟨6, _⟩ => ⟨S1x16384, .f32⟩
  | .local _ .vmem, ⟨7, _⟩ => ⟨S1x16384, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_16 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_18 : Ref sig .tc := ⟨.hbm, 151, rfl⟩
abbrev main_call0_v0 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S259x128_S128x128_0_0 : S259x128.Slices ![0, 0] S128x128
  slices_S259x128_S128x128_128_0 : S259x128.Slices ![128, 0] S128x128
  slices_S259x128_S1x128_256_0 : S259x128.Slices ![256, 0] S1x128
  shapeCasts_S1x128_S128 : S1x128.ShapeCasts S128
  slices_S259x128_S1x128_257_0 : S259x128.Slices ![257, 0] S1x128
  slices_S259x128_S1x128_258_0 : S259x128.Slices ![258, 0] S1x128
  bitsLt_bf16_f32 : FTy.bits .bf16 < FTy.bits .f32
  bcast_S128_S1x128_1 : S128.BroadcastsInDim S1x128 (![1] : Fin 1 → Fin S1x128.rank)
  bcast_S1000000x1_S1000000x128_0_1 : S1000000x1.BroadcastsInDim S1000000x128 (![0, 1] : Fin 2 → Fin S1000000x128.rank)
  bcast_S1x128_S1000000x128_0_1 : S1x128.BroadcastsInDim S1000000x128 (![0, 1] : Fin 2 → Fin S1000000x128.rank)
  pads_S1000000x128_S1015808x128_0158080_000 : S1000000x128.Pads (![0, 0] : Fin 2 → Nat) ![15808, 0] ![0, 0] S1015808x128
  h_S_ : 0 < S_.numel
  shapeCasts_S128x1_S1x128 : S128x1.ShapeCasts S1x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S16384 : S16384x128.Reduces [1] S16384
  shapeCasts_S16384_S16384x1 : S16384.ShapeCasts S16384x1
  broadcasts_S16384x1_S16384x128 : S16384x1.Broadcasts S16384x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1_S1_0 : ∀ a, (![0] : Fin 1 → Nat) a + S1.size a ≤ S1.size a
  h_S1 : 0 < S1.numel
  shapeCasts_S1_S1x1 : S1.ShapeCasts S1x1
  broadcasts_S1x1_S1x16384 : S1x1.Broadcasts S1x16384
  inb_S1x16384_S1x16384_0_0 : ∀ a, (![0, 0] : Fin 2 → Nat) a + S1x16384.size a ≤ S1x16384.size a
  h_S1x16384 : 0 < S1x16384.numel
  shapeCasts_S1x1015808_S1015808 : S1x1015808.ShapeCasts S1015808
  slices_S1015808_S1000000_0 : S1015808.Slices ![0] S1000000
  gather_S100000_S1000000x1_S1000000_n_0_n_n_0_1_1_wf : GatherDims.WF S100000 S1000000x1 S1000000 [] [0] [] [0] [] 1 ![1]
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  dot_S1x128_S16384x128_S1x16384_1_1_0_0_n_n_wf : DotDims.WF S1x128 S16384x128 S1x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S1015808x128.size a
  hwx0_0 : ∀ i : grid0.Coords, EltTy.bits .bf16 = 32 ∨ (Rect.block (s := S1015808x128) S16384x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .bf16 = 32 ∨ (Rect.block (s := S1x128) S1x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x1015808.size a
  hwx0_5 : ∀ i : grid0.Coords, EltTy.bits .f32 = 32 ∨ (Rect.block (s := S1x1015808) S1x16384.size (cc0_transform_5 i) (hinb0_5 i)).WholeWords (EltTy.packing .f32)

variable [Facts₀]

def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1x128_S16384x128_S1x16384_1_1_0_0_n_n : DotDims S1x128 S16384x128 S1x16384 where
  lhsContracting := [1]
  rhsContracting := [1]
  lhsNonContracting := [0]
  rhsNonContracting := [0]
  lhsBatch := []
  rhsBatch := []
  wf := dot_S1x128_S16384x128_S1x16384_1_1_0_0_n_n_wf

abbrev win0_0 : Pipeline.Window sig grid0 :=
  Pipeline.Window.ofSpec (Memref.whole main_v117) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v119) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v120) S1x16384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S259x128 : Shape := ⟨2, ![259, 128]⟩
abbrev S128 : Shape := ⟨1, ![128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x259 : Shape := ⟨2, ![1000000, 259]⟩
abbrev S1x128 : Shape := ⟨2, ![1, 128]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1000000, .i32⟩
  | 2 => ⟨S100000, .f32⟩
  | 3 => ⟨S100000, .f32⟩
  | 4 => ⟨S100000, .f32⟩
  | 5 => ⟨S100000, .f32⟩
  | 6 => ⟨S100000, .f32⟩
  | 7 => ⟨S100000, .f32⟩
  | 8 => ⟨S259x128, .f32⟩
  | 9 => ⟨S128, .f32⟩
  | 10 => ⟨S128, .f32⟩
  | 11 => ⟨S128, .f32⟩
  | 12 => ⟨S128x1, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S100000, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .f32⟩
  | 37 => ⟨S1000000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S100000, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000, .f32⟩
  | 71 => ⟨S1000000, .i1⟩
  | 72 => ⟨S1000000, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S1000000x1, .f32⟩
  | 115 => ⟨S1000000x1, .f32⟩
  | 116 => ⟨S1000000x1, .f32⟩
  | 117 => ⟨S1000000x259, .f32⟩
  | 118 => ⟨S1000000x128, .f32⟩
  | 119 => ⟨S1x128, .f32⟩
  | 120 => ⟨S1000000x128, .f32⟩
  | 121 => ⟨S1000000x128, .f32⟩
  | 122 => ⟨S_, .f32⟩
  | 123 => ⟨S1000000x128, .f32⟩
  | 124 => ⟨S1000000x128, .f32⟩
  | 125 => ⟨S_, .f32⟩
  | 126 => ⟨S1000000, .f32⟩
  | 127 => ⟨S1000000x1, .f32⟩
  | _ => ⟨S100000x128, .f32⟩

abbrev hbmTy0_1 (i : Nat) : BufTy := match i % 128 with
  | 0 => ⟨S_, .f32⟩
  | 1 => ⟨S1000000x1, .f32⟩
  | 2 => ⟨S1000000x1, .f32⟩
  | 3 => ⟨S1000000x128, .f32⟩
  | 4 => ⟨S1000000x128, .f32⟩
  | 5 => ⟨S1000000x128, .f32⟩
  | 6 => ⟨S_, .f32⟩
  | 7 => ⟨S1000000, .f32⟩
  | 8 => ⟨S1000000x1, .f32⟩
  | 9 => ⟨S_, .f32⟩
  | 10 => ⟨S1000000x1, .f32⟩
  | 11 => ⟨S1000000x1, .f32⟩
  | 12 => ⟨S1000000x128, .f32⟩
  | 13 => ⟨S1000000x128, .f32⟩
  | 14 => ⟨S_, .f32⟩
  | 15 => ⟨S1000000x1, .f32⟩
  | 16 => ⟨S1000000x1, .f32⟩
  | 17 => ⟨S1000000x1, .f32⟩
  | 18 => ⟨S1000000x128, .f32⟩
  | 19 => ⟨S1000000x128, .f32⟩
  | 20 => ⟨S1x128, .f32⟩
  | 21 => ⟨S1000000x128, .f32⟩
  | 22 => ⟨S1000000x128, .f32⟩
  | 23 => ⟨S1x128, .f32⟩
  | 24 => ⟨S1000000x128, .f32⟩
  | 25 => ⟨S1000000x128, .f32⟩
  | 26 => ⟨S1000000x1, .f32⟩
  | 27 => ⟨S1x1, .f32⟩
  | 28 => ⟨S1000000x1, .f32⟩
  | 29 => ⟨S1000000x1, .f32⟩
  | 30 => ⟨S1000000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call0_cst : Ref sig .tc := ⟨.hbm, 122, rfl⟩
abbrev main_call0_v0 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_cst_21 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x128_S1000000x1_S1000000x1_S1000000x1_S1000000x259_d1 : Shape.Concatenates [S1000000x128, S1000000x128, S1000000x1, S1000000x1, S1000000x1] S1000000x259 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  reducesTo_S1000000x128_S1000000_d1 : S1000000x128.ReducesTo [1] S1000000
  h_S_ : 0 < S_.numel
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000_S1000000x1_S1000000_n_0_n_n_0_1_1_wf : GatherDims.WF S100000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  dot_S1000000x259_S259x128_S1000000x128_1_0_0_1_n_n_wf : DotDims.WF S1000000x259 S259x128 S1000000x128 [1] [0] [0] [1] [] []
  dot_S1000000x128_S128x1_S1000000x1_1_0_0_1_n_n_wf : DotDims.WF S1000000x128 S128x1 S1000000x1 [1] [0] [0] [1] [] []

variable [Facts₀]

def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x259_S259x128_S1000000x128_1_0_0_1_n_n : DotDims S1000000x259 S259x128 S1000000x128 where
  lhsContracting := [1]
  rhsContracting := [0]
  lhsNonContracting := [0]
  rhsNonContracting := [1]
  lhsBatch := []
  rhsBatch := []
  wf := dot_S1000000x259_S259x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.EdgeRow.lean ====
/-
  One edge's score as a function of its 128 pre-activations, and the two sums the programs arrange differently.

  A row x of 128 pre-activations is rectified (h = max x 0), normalised over its 128 lanes (mean μ = (Σ h)/128, centred d = h − μ,
  variance v = (Σ d·d)/128, scale (v + ε)^(−1/2)), scaled and shifted lane by lane (γ, β), and contracted with a weight vector w,
  plus an offset. Every step is the extended reals' own operation, so the row function is defined on all of them.

  A sum over 259 lanes — 128 lanes of one node's features, 128 of another's, then three scores — is the sum of the two blocks
  of 128 plus the last three terms: a regrouping of a finite sum in a commutative monoid, valid at ±∞ too.
-/
import Mathlib
import Idealize.ShloMosaic.PureOps.Ideal

namespace Cert.EdgeRow

open Idealize.ShloMosaic

/-- The rectified row. -/
noncomputable def relu (x : Fin 128 → EReal) (k : Fin 128) : EReal := max (x k) (Ideal.ofBits .f32 0x00000000#32)

/-- The mean of the rectified row over its 128 lanes. -/
noncomputable def mean (x : Fin 128 → EReal) : EReal := Ideal.div (∑ k, relu x k) (Ideal.ofBits .f32 0x43000000#32)

/-- The rectified row less its mean. -/
noncomputable def centred (x : Fin 128 → EReal) (k : Fin 128) : EReal := relu x k - mean x

/-- The variance of the rectified row. -/
noncomputable def var (x : Fin 128 → EReal) : EReal :=
  Ideal.div (∑ k, centred x k * centred x k) (Ideal.ofBits .f32 0x43000000#32)

/-- The normalised row, scaled by `γ` and shifted by `β`. -/
noncomputable def normed (x γ β : Fin 128 → EReal) (k : Fin 128) : EReal :=
  centred x k * Ideal.rsqrt (var x + Ideal.ofBits .f32 0x3727C5AC#32) * γ k + β k

/-- The edge's score: the normalised row contracted with `w`, plus the offset `b`. -/
noncomputable def score (x γ β w : Fin 128 → EReal) (b : EReal) : EReal := (∑ k, normed x γ β k * w k) + b

/-- The contraction with the weight on the left is the same score: multiplication of extended reals commutes. -/
theorem score_comm (x γ β w : Fin 128 → EReal) (b : EReal) :
    (∑ k, w k * normed x γ β k) + b = score x γ β w b := by
  unfold score
  exact congrArg (· + b) (Finset.sum_congr rfl fun k _ => mul_comm _ _)

/-- A sum over 259 indices, regrouped: the first 128, the next 128, and the last three. -/
theorem sum_259 {M : Type*} [AddCommMonoid M] (f : Fin 259 → M) :
    ∑ k, f k = (((∑ c : Fin 128, f ⟨c.val, by omega⟩) + ∑ c : Fin 128, f ⟨128 + c.val, by omega⟩)
      + f ⟨256, by omega⟩ + f ⟨257, by omega⟩) + f ⟨258, by omega⟩ := by
  have h1 := Fin.sum_univ_castSucc (n := 258) f
  have h2 := Fin.sum_univ_castSucc (n := 257) (fun i => f i.castSucc)
  have h3 := Fin.sum_univ_castSucc (n := 256) (fun i => f i.castSucc.castSucc)
  have h4 := Fin.sum_univ_add (a := 128) (b := 128) (fun i : Fin (128 + 128) => f i.castSucc.castSucc.castSucc)
  rw [h1, h2, h3, h4]
  rfl

end Cert.EdgeRow
-- ==== Proof.RefTail.lean ====
/-
  The reference after its first linear layer, read at an index.

  From the [1000000, 128] array of pre-activations on, the reference works row by row: it rectifies, takes each row's mean and
  variance over the 128 lanes (a sum from zero divided by 128), normalises, scales by γ and shifts by β, contracts each row with
  the [128, 1] weight column and adds the offset; the final reshape drops the unit axis. So its result at edge e is the score of
  row e of the pre-activations.
-/
import proofs.«175787_j61503931678932_2_alg».proof.Proof.Gen.ReferenceIdeal.Read
import proofs.«175787_j61503931678932_2_alg».proof.Proof.EdgeRow
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.EdgeRow

variable (x0 : FVec Ideal S100000x128 .f32) (x1 : IVec S2x1000000 32) (x2 x3 x4 x5 x6 x7 : FVec Ideal S100000 .f32)
    (x8 : FVec Ideal S259x128 .f32) (x9 x10 x11 : FVec Ideal S128 .f32) (x12 : FVec Ideal S128x1 .f32) (x13 : FVec Ideal S1 .f32)

/-- Row `e` of the pre-activations. -/
abbrev pre (e : Fin 1000000) : Fin 128 → EReal := fun k => val_main_v87 (F := Ideal) x0 x1 x2 x3 x4 x5 x6 x7 x8 x9 (ix2 e k)

theorem v88_at (e : Fin 1000000) (q : Fin 128) :
    val_main_v88 (F := Ideal) x0 x1 x2 x3 x4 x5 x6 x7 x8 x9 (ix2 e q) = relu (pre x0 x1 x2 x3 x4 x5 x6 x7 x8 x9 e) q := by
  rw [val_main_v88_apply, val_main_call0_v0_apply]
  unfold relu
  rfl

theorem v89_at (e : Fin 1000000) :
    val_main_v89 (F := Ideal) x0 x1 x2 x3 x4 x5 x6 x7 x8 x9 (ix1 e) = ∑ k, relu (pre x0 x1 x2 x3 x4 x5 x6 x7 x8 x9 e) k := by
  rw [val_main_v89_apply]
  have hz : ∀ i, val_main_cst_18 (F := Ideal) i = 0 := fun _ => Ideal.ofBits_zero_f32
  rw [hz, zero_add]
  refine Finset.sum_congr rfl fun k _ => ?_
  have e1 : idx_main_v89 (ix1 e) k = ix2 e k := funext fun a => Fin.ext (by match a with | ⟨0, _⟩ => rfl | ⟨1, _⟩ => rfl)
  rw [e1, v88_at]

theorem v92_at (e : Fin 1000000) (u : Fin 1) :
    val_main_v92 (F := Ideal) x0 x1 x2 x3 x4 x5 x6 x7 x8 x9 (ix2 e u) = mean (pre x0 x1 x2 x3 x4 x5 x6 x7 x8 x9 e) := by
  rw [val_main_v92_apply, val_main_v90_apply, val_main_v91_apply]
  have e1 : idx_main_v90 (ix2 e u) = ix1 e := funext fun a => Fin.ext (by match a with | ⟨0, _⟩ => rfl)
  rw [e1, v89_at]
  unfold mean
  rfl

theorem v94_at (e : Fin 1000000) (q : Fin 128) :
    val_main_v94 (F := Ideal) x0 x1 x2 x3 x4 x5 x6 x7 x8 x9 (ix2 e q) = centred (pre x0 x1 x2 x3 x4 x5 x6 x7 x8 x9 e) q := by
  rw [val_main_v94_apply, val_main_v93_apply, v88_at]
  have e1 : idx_main_v93 (ix2 e q) = ix2 e (0 : Fin 1) := funext fun a => Fin.ext (by match a with | ⟨0, _⟩ => rfl | ⟨1, _⟩ => rfl)
  rw [e1, v92_at]
  unfold centred
  rfl

theorem v101_at (e : Fin 1000000) (q : Fin 128) :
    val_main_v101 (F := Ideal) x0 x1 x2 x3 x4 x5 x6 x7 x8 x9 (ix2 e q) = centred (pre x0 x1 x2 x3 x4 x5 x6 x7 x8 x9 e) q := by
  rw [val_main_v101_apply, val_main_v100_apply, v88_at]
  have e1 : idx_main_v100 (ix2 e q) = ix2 e (0 : Fin 1) := funext fun a => Fin.ext (by match a with | ⟨0, _⟩ => rfl | ⟨1, _⟩ => rfl)
  rw [e1, v92_at]
  unfold centred
  rfl

theorem v96_at (e : Fin 1000000) :
    val_main_v96 (F := Ideal) x0 x1 x2 x3 x4 x5 x6 x7 x8 x9 (ix1 e) = ∑ k, centred (pre x0 x1 x2 x3 x4 x5 x6 x7 x8 x9 e) k * centred (pre x0 x1 x2 x3 x4 x5 x6 x7 x8 x9 e) k := by
  rw [val_main_v96_apply]
  have hz : ∀ i, val_main_cst_20 (F := Ideal) i = 0 := fun _ => Ideal.ofBits_zero_f32
  rw [hz, zero_add]
  refine Finset.sum_congr rfl fun k _ => ?_
  have e1 : idx_main_v96 (ix1 e) k = ix2 e k := funext fun a => Fin.ext (by match a with | ⟨0, _⟩ => rfl | ⟨1, _⟩ => rfl)
  rw [e1, val_main_v95_apply, v94_at]
  rfl

theorem v99_at (e : Fin 1000000) (u : Fin 1) :
    val_main_v99 (F := Ideal) x0 x1 x2 x3 x4 x5 x6 x7 x8 x9 (ix2 e u) = var (pre x0 x1 x2 x3 x4 x5 x6 x7 x8 x9 e) := by
  rw [val_main_v99_apply, val_main_v97_apply, val_main_v98_apply]
  have e1 : idx_main_v97 (ix2 e u) = ix1 e := funext fun a => Fin.ext (by match a with | ⟨0, _⟩ => rfl)
  rw [e1, v96_at]
  unfold var
  rfl

theorem v112_at (e : Fin 1000000) (q : Fin 128) :
    val_main_v112 (F := Ideal) x0 x1 x2 x3 x4 x5 x6 x7 x8 x9 x10 x11 (ix2 e q)
      = normed (pre x0 x1 x2 x3 x4 x5 x6 x7 x8 x9 e) (fun k => x10 (ix1 k)) (fun k => x11 (ix1 k)) q := by
  rw [val_main_v112_apply, val_main_v109_apply, val_main_v106_apply, v101_at, val_main_v105_apply, val_main_v104_apply,
    val_main_v103_apply, val_main_v102_apply, val_main_v108_apply, val_main_v107_apply, val_main_v111_apply, val_main_v110_apply]
  have e1 : idx_main_v105 (ix2 e q) = ix2 e (0 : Fin 1) := funext fun a => Fin.ext (by match a with | ⟨0, _⟩ => rfl | ⟨1, _⟩ => rfl)
  have e2 : idx_main_v107 (idx_main_v108 (ix2 e q)) = ix1 q := funext fun a => Fin.ext (by match a with | ⟨0, _⟩ => rfl)
  have e3 : idx_main_v110 (idx_main_v111 (ix2 e q)) = ix1 q := funext fun a => Fin.ext (by match a with | ⟨0, _⟩ => rfl)
  rw [e1, e2, e3, v99_at]
  unfold normed
  rfl

/-- The reference's result at edge `e` is the score of row `e` of its pre-activations. -/
theorem v117_at (e : Fin 1000000) :
    val_main_v117 (F := Ideal) x0 x1 x2 x3 x4 x5 x6 x7 x8 x9 x10 x11 x12 x13 (ix1 e)
      = score (pre x0 x1 x2 x3 x4 x5 x6 x7 x8 x9 e) (fun k => x10 (ix1 k)) (fun k => x11 (ix1 k)) (fun k => x12 (ix2 k (0 : Fin 1)))
          (x13 (ix1 (0 : Fin 1))) := by
  rw [val_main_v117_apply, val_main_v116_apply, val_main_v113_apply, val_main_v115_apply, val_main_v114_apply]
  have e0 : idx_main_v114 (idx_main_v115 (idx_main_v117 (ix1 e))) = ix1 (0 : Fin 1) := funext fun a => Fin.ext (by match a with | ⟨0, _⟩ => rfl)
  rw [e0]
  unfold score
  refine congrArg (· + x13 (ix1 (0 : Fin 1))) (Finset.sum_congr rfl fun k _ => ?_)
  have e1 : lidx_main_v113 (idx_main_v117 (ix1 e)) k = ix2 e k :=
    funext fun a => Fin.ext (by match a with | ⟨0, _⟩ => exact Nat.div_one _ | ⟨1, _⟩ => rfl)
  have e2 : ridx_main_v113 (idx_main_v117 (ix1 e)) k = ix2 k (0 : Fin 1) := funext fun a => Fin.ext (by match a with | ⟨0, _⟩ => rfl | ⟨1, _⟩ => rfl)
  rw [e1, e2, v112_at]

end Cert.ReferenceIdeal.RefValue

end
-- ==== Proof.EdgePre.lean ====
/-
  One edge's pre-activation at one lane, as the kernel groups it, and the reference's grouping of the same sum.

  The reference lays an edge's inputs side by side — 128 features of its first node, 128 of its second, three scores — and
  contracts the 259 entries with a column of the weight matrix. The kernel contracts the two feature rows with the column's two
  blocks of 128 separately and adds the three score terms one by one. The two are one sum, regrouped.
-/
import proofs.«175787_j61503931678932_2_alg».proof.Proof.EdgeRow

namespace Cert.EdgeRow

/-- The pre-activation: the first node's features with the column's first 128 entries, the second node's with the next 128,
    the three scores with entries 256, 257, 258, and the bias. -/
noncomputable def preact (hr hc : Fin 128 → EReal) (s1 s2 s3 : EReal) (W : Fin 259 → EReal) (b : EReal) : EReal :=
  (∑ c : Fin 128, hr c * W ⟨c.val, by omega⟩) + (∑ c : Fin 128, hc c * W ⟨128 + c.val, by omega⟩)
    + s1 * W ⟨256, by omega⟩ + s2 * W ⟨257, by omega⟩ + s3 * W ⟨258, by omega⟩ + b

/-- The contraction of the 259 entries laid side by side with the column, plus the bias, is the pre-activation. -/
theorem preact_of_concat (Z W : Fin 259 → EReal) (b : EReal) :
    (∑ k, Z k * W k) + b
      = preact (fun c => Z ⟨c.val, by omega⟩) (fun c => Z ⟨128 + c.val, by omega⟩) (Z ⟨256, by omega⟩) (Z ⟨257, by omega⟩)
          (Z ⟨258, by omega⟩) W b := by
  unfold preact
  exact congrArg (· + b) (sum_259 fun k => Z k * W k)

end Cert.EdgeRow
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.RefPre.lean ====
/-
  The reference's first linear layer, read at an index.

  The reference takes the rows of the node features at each edge's two node numbers, lays them side by side with the edge's three
  scores into a [1000000, 259] array, contracts it with the [259, 128] weight matrix and adds the bias row. Entry (e, q) of the
  result is the pre-activation of edge e at lane q: the two nodes' feature rows and the three scores against column q.
-/
import proofs.«175787_j61503931678932_2_alg».proof.Proof.Gen.ReferenceIdeal.Read
import proofs.«175787_j61503931678932_2_alg».proof.Proof.EdgePre
import proofs.«175787_j61503931678932_2_alg».proof.Proof.LibGatherRows
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read Cert.EdgeRow Cert.LibGatherRows
open Cert.ReferenceIdeal.Facts₀

variable (x0 : FVec Ideal S100000x128 .f32) (x1 : IVec S2x1000000 32) (x2 x3 x4 x5 x6 x7 : FVec Ideal S100000 .f32)
    (x8 : FVec Ideal S259x128 .f32) (x9 x10 x11 : FVec Ideal S128 .f32) (x12 : FVec Ideal S128x1 .f32) (x13 : FVec Ideal S1 .f32)

/-- The node table has rows. -/
theorem nodes_pos : 0 < 100000 := by omega

/-- Rows of the node features taken at the first node numbers. -/
theorem v72_at (e : Fin 1000000) (c : Fin 128) :
    val_main_v72 (F := Ideal) x0 x1 (ix2 e c) = x0 (ix2 (rowOf nodes_pos (val_main_v71 (F := Ideal) x1) e) c) := by
  unfold val_main_v72
  exact gather_rows_apply nodes_pos gather_S100000x128_S1000000x1_S1000000x128_1_0_n_n_0_1_1128.wf x0 (val_main_v71 (F := Ideal) x1) e c

/-- Rows of the node features taken at the second node numbers. -/
theorem v79_at (e : Fin 1000000) (c : Fin 128) :
    val_main_v79 (F := Ideal) x0 x1 (ix2 e c) = x0 (ix2 (rowOf nodes_pos (val_main_v78 (F := Ideal) x1) e) c) := by
  unfold val_main_v79
  exact gather_rows_apply nodes_pos gather_S100000x128_S1000000x1_S1000000x128_1_0_n_n_0_1_1128.wf x0 (val_main_v78 (F := Ideal) x1) e c

/-! ## The five pieces laid side by side -/

/-- The pieces, in order: two [1000000, 128] arrays of node features and three [1000000, 1] columns of scores. -/
abbrev pieces : List ((s : Shape) × (s.Idx → EReal)) :=
  [⟨S1000000x128, val_main_v72 (F := Ideal) x0 x1⟩, ⟨S1000000x128, val_main_v79 (F := Ideal) x0 x1⟩,
    ⟨S1000000x1, val_main_v80 (F := Ideal) x1 x5 x6 x7⟩, ⟨S1000000x1, val_main_v81 (F := Ideal) x1 x2 x3⟩,
    ⟨S1000000x1, val_main_v82 (F := Ideal) x1 x4⟩]

theorem v83_first (e : Fin 1000000) (c : Fin 128) :
    val_main_v83 (F := Ideal) x0 x1 x2 x3 x4 x5 x6 x7 (ix2 e (⟨c.val, by omega⟩ : Fin 259)) = val_main_v72 (F := Ideal) x0 x1 (ix2 e c) := by
  unfold val_main_v83
  exact concatenate_apply_piece (t := S1000000x259) 1 (pieces x0 x1 x2 x3 x4 x5 x6 x7) concatenates_S1000000x128_S1000000x128_S1000000x1_S1000000x1_S1000000x1_S1000000x259_d1 (ix2 e (⟨c.val, by omega⟩ : Fin 259)) 0
    (by show (0 : ℕ) < 5; omega) S1000000x128 (val_main_v72 (F := Ideal) x0 x1) rfl rfl 0 rfl (ix2 e c)
    (fun b hb => by match b with | ⟨0, _⟩ => rfl | ⟨1, _⟩ => exact absurd rfl hb) (by show 0 + c.val = c.val; omega)

theorem v83_second (e : Fin 1000000) (c : Fin 128) :
    val_main_v83 (F := Ideal) x0 x1 x2 x3 x4 x5 x6 x7 (ix2 e (⟨128 + c.val, by omega⟩ : Fin 259)) = val_main_v79 (F := Ideal) x0 x1 (ix2 e c) := by
  unfold val_main_v83
  exact concatenate_apply_piece (t := S1000000x259) 1 (pieces x0 x1 x2 x3 x4 x5 x6 x7) concatenates_S1000000x128_S1000000x128_S1000000x1_S1000000x1_S1000000x1_S1000000x259_d1 (ix2 e (⟨128 + c.val, by omega⟩ : Fin 259)) 1
    (by show (1 : ℕ) < 5; omega) S1000000x128 (val_main_v79 (F := Ideal) x0 x1) rfl rfl 128 rfl (ix2 e c)
    (fun b hb => by match b with | ⟨0, _⟩ => rfl | ⟨1, _⟩ => exact absurd rfl hb) rfl

theorem v83_third (e : Fin 1000000) :
    val_main_v83 (F := Ideal) x0 x1 x2 x3 x4 x5 x6 x7 (ix2 e (⟨256, by omega⟩ : Fin 259)) = val_main_v30 (F := Ideal) x1 x5 x6 x7 (ix1 e) := by
  have h : val_main_v83 (F := Ideal) x0 x1 x2 x3 x4 x5 x6 x7 (ix2 e (⟨256, by omega⟩ : Fin 259))
      = val_main_v80 (F := Ideal) x1 x5 x6 x7 (ix2 e (0 : Fin 1)) := by
    unfold val_main_v83
    exact concatenate_apply_piece (t := S1000000x259) 1 (pieces x0 x1 x2 x3 x4 x5 x6 x7) concatenates_S1000000x128_S1000000x128_S1000000x1_S1000000x1_S1000000x1_S1000000x259_d1 (ix2 e (⟨256, by omega⟩ : Fin 259)) 2
      (by show (2 : ℕ) < 5; omega) S1000000x1 (val_main_v80 (F := Ideal) x1 x5 x6 x7) rfl rfl 256 rfl (ix2 e (0 : Fin 1))
      (fun b hb => by match b with | ⟨0, _⟩ => rfl | ⟨1, _⟩ => exact absurd rfl hb) rfl
  rw [h, val_main_v80_apply]
  exact congrArg _ (funext fun a => Fin.ext (by match a with | ⟨0, _⟩ => rfl))

theorem v83_fourth (e : Fin 1000000) :
    val_main_v83 (F := Ideal) x0 x1 x2 x3 x4 x5 x6 x7 (ix2 e (⟨257, by omega⟩ : Fin 259)) = val_main_v47 (F := Ideal) x1 x2 x3 (ix1 e) := by
  have h : val_main_v83 (F := Ideal) x0 x1 x2 x3 x4 x5 x6 x7 (ix2 e (⟨257, by omega⟩ : Fin 259))
      = val_main_v81 (F := Ideal) x1 x2 x3 (ix2 e (0 : Fin 1)) := by
    unfold val_main_v83
    exact concatenate_apply_piece (t := S1000000x259) 1 (pieces x0 x1 x2 x3 x4 x5 x6 x7) concatenates_S1000000x128_S1000000x128_S1000000x1_S1000000x1_S1000000x1_S1000000x259_d1 (ix2 e (⟨257, by omega⟩ : Fin 259)) 3
      (by show (3 : ℕ) < 5; omega) S1000000x1 (val_main_v81 (F := Ideal) x1 x2 x3) rfl rfl 257 rfl (ix2 e (0 : Fin 1))
      (fun b hb => by match b with | ⟨0, _⟩ => rfl | ⟨1, _⟩ => exact absurd rfl hb) rfl
  rw [h, val_main_v81_apply]
  exact congrArg _ (funext fun a => Fin.ext (by match a with | ⟨0, _⟩ => rfl))

theorem v83_fifth (e : Fin 1000000) :
    val_main_v83 (F := Ideal) x0 x1 x2 x3 x4 x5 x6 x7 (ix2 e (⟨258, by omega⟩ : Fin 259)) = val_main_v65 (F := Ideal) x1 x4 (ix1 e) := by
  have h : val_main_v83 (F := Ideal) x0 x1 x2 x3 x4 x5 x6 x7 (ix2 e (⟨258, by omega⟩ : Fin 259))
      = val_main_v82 (F := Ideal) x1 x4 (ix2 e (0 : Fin 1)) := by
    unfold val_main_v83
    exact concatenate_apply_piece (t := S1000000x259) 1 (pieces x0 x1 x2 x3 x4 x5 x6 x7) concatenates_S1000000x128_S1000000x128_S1000000x1_S1000000x1_S1000000x1_S1000000x259_d1 (ix2 e (⟨258, by omega⟩ : Fin 259)) 4
      (by show (4 : ℕ) < 5; omega) S1000000x1 (val_main_v82 (F := Ideal) x1 x4) rfl rfl 258 rfl (ix2 e (0 : Fin 1))
      (fun b hb => by match b with | ⟨0, _⟩ => rfl | ⟨1, _⟩ => exact absurd rfl hb) rfl
  rw [h, val_main_v82_apply]
  exact congrArg _ (funext fun a => Fin.ext (by match a with | ⟨0, _⟩ => rfl))

/-! ## The layer -/

/-- The reference's pre-activation of edge `e` at lane `q`. -/
theorem v87_at (e : Fin 1000000) (q : Fin 128) :
    val_main_v87 (F := Ideal) x0 x1 x2 x3 x4 x5 x6 x7 x8 x9 (ix2 e q)
      = preact (fun c => x0 (ix2 (rowOf nodes_pos (val_main_v71 (F := Ideal) x1) e) c))
          (fun c => x0 (ix2 (rowOf nodes_pos (val_main_v78 (F := Ideal) x1) e) c))
          (val_main_v30 (F := Ideal) x1 x5 x6 x7 (ix1 e)) (val_main_v47 (F := Ideal) x1 x2 x3 (ix1 e))
          (val_main_v65 (F := Ideal) x1 x4 (ix1 e)) (fun k => x8 (ix2 k q)) (x9 (ix1 q)) := by
  rw [val_main_v87_apply, val_main_v84_apply, val_main_v86_apply, val_main_v85_apply]
  have eb : idx_main_v85 (idx_main_v86 (ix2 e q)) = ix1 q := funext fun a => Fin.ext (by match a with | ⟨0, _⟩ => rfl)
  have el : ∀ k : Fin 259, lidx_main_v84 (ix2 e q) k = ix2 e k := fun k => funext fun a => Fin.ext (by match a with | ⟨0, _⟩ => rfl | ⟨1, _⟩ => rfl)
  have er : ∀ k : Fin 259, ridx_main_v84 (ix2 e q) k = ix2 k q := fun k => funext fun a => Fin.ext (by match a with | ⟨0, _⟩ => rfl | ⟨1, _⟩ => rfl)
  rw [eb]
  simp only [el, er]
  refine (preact_of_concat (fun k => val_main_v83 (F := Ideal) x0 x1 x2 x3 x4 x5 x6 x7 (ix2 e k)) (fun k => x8 (ix2 k q)) (x9 (ix1 q))).trans ?_
  simp only [v83_first, v83_second, v83_third, v83_fourth, v83_fifth, v72_at, v79_at]

end Cert.ReferenceIdeal.RefValue

end
-- ==== Proof.RefResult.lean ====
/-
  The result both programs compute, and the reference computing it.

  For edge e: take the node features' rows at the edge's two node numbers, form the pre-activation at each of the 128 lanes from
  the two rows, the edge's three scores, the weight matrix's column and the bias, and take the score of that row (rectified,
  normalised, scaled and shifted, contracted with the second weight vector, plus the offset). The three per-edge scores and the
  two arrays of node numbers are computed from the inputs by operations the two programs share line for line; they enter here
  as the reference's own stages, unopened.
-/
import proofs.«175787_j61503931678932_2_alg».proof.Proof.RefTail
import proofs.«175787_j61503931678932_2_alg».proof.Proof.RefPre

noncomputable section

namespace Cert.ReferenceIdeal.RefValue

open Idealize.ShloMosaic Idealize.ShloMosaic.ValueIdx Cert.ReferenceIdeal Cert.ReferenceIdeal.Read Cert.EdgeRow Cert.LibGatherRows

variable (x0 : FVec Ideal S100000x128 .f32) (x1 : IVec S2x1000000 32) (x2 x3 x4 x5 x6 x7 : FVec Ideal S100000 .f32)
    (x8 : FVec Ideal S259x128 .f32) (x9 x10 x11 : FVec Ideal S128 .f32) (x12 : FVec Ideal S128x1 .f32) (x13 : FVec Ideal S1 .f32)

/-- The score of every edge, as one function of the fourteen inputs. -/
def result : FVec Ideal S1000000 .f32 := fun i =>
  score
    (fun q => preact
      (fun c => x0 (ix2 (rowOf nodes_pos (val_main_v71 (F := Ideal) x1) (⟨(i 0).val, (i 0).isLt⟩ : Fin 1000000)) c))
      (fun c => x0 (ix2 (rowOf nodes_pos (val_main_v78 (F := Ideal) x1) (⟨(i 0).val, (i 0).isLt⟩ : Fin 1000000)) c))
      (val_main_v30 (F := Ideal) x1 x5 x6 x7 (ix1 (⟨(i 0).val, (i 0).isLt⟩ : Fin 1000000)))
      (val_main_v47 (F := Ideal) x1 x2 x3 (ix1 (⟨(i 0).val, (i 0).isLt⟩ : Fin 1000000)))
      (val_main_v65 (F := Ideal) x1 x4 (ix1 (⟨(i 0).val, (i 0).isLt⟩ : Fin 1000000)))
      (fun k => x8 (ix2 k q)) (x9 (ix1 q)))
    (fun k => x10 (ix1 k)) (fun k => x11 (ix1 k)) (fun k => x12 (ix2 k (0 : Fin 1))) (x13 (ix1 (0 : Fin 1)))

/-- The reference's result array is that function. -/
theorem v117_eq : val_main_v117 (F := Ideal) x0 x1 x2 x3 x4 x5 x6 x7 x8 x9 x10 x11 x12 x13 = result x0 x1 x2 x3 x4 x5 x6 x7 x8 x9 x10 x11 x12 x13 := by
  funext i
  obtain ⟨e, rfl⟩ : ∃ e : Fin 1000000, i = ix1 e := ⟨i 0, eq_ix1 i⟩
  rw [v117_at]
  unfold result
  exact congrArg (score · _ _ _ _) (funext fun q => v87_at x0 x1 x2 x3 x4 x5 x6 x7 x8 x9 e q)

end Cert.ReferenceIdeal.RefValue

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.KernelBody.lean ====
/-
  The kernel body's one store, read at an index.

  At a grid point the body loads a [16384, 128] block of pre-activations, the two [128] vectors γ and β, the [1, 128] weight
  row and the [1] offset, and stores a [1, 16384] row. Entry (0, r) of the stored row depends on row r of the block alone: it is
  that row's score — rectified, normalised over its 128 lanes, scaled and shifted, contracted with the weight row, plus the
  offset. The lane sums are sums over the lane coordinate; the kept unit axes of the mean and the variance and the broadcasts
  back over the lanes read their operand at the row coordinate; the contraction of the weight row with the block's rows
  (both operands contracted along their lanes) is the sum over the lane of weight times normalised entry.
-/
import proofs.«175787_j61503931678932_2_alg».proof.Proof.Gen.KernelIdeal.Skeleton
import proofs.«175787_j61503931678932_2_alg».proof.Proof.EdgeRow
import proofs.«175787_j61503931678932_2_alg».proof.Proof.LibRowStat
import proofs.«175787_j61503931678932_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.EdgeRow

variable (x0 : FVec Ideal S16384x128 .bf16) (x1 x2 : FVec Ideal S128 .f32) (x3 : FVec Ideal S1x128 .bf16) (x4 : FVec Ideal S1 .f32)

/-- Row `r` of the loaded block. -/
abbrev row (r : Fin 16384) : Fin 128 → EReal := fun k => x0 (ix2 r k)

/-- The rectified block. -/
def hB : FVec Ideal S16384x128 .f32 :=
  maximumf (extf .f32 (shapeCast S16384x128 x0 shapeCasts_S16384x128_S16384x128) bitsLt_bf16_f32)
    (broadcast S16384x128 (Scalar.ofBits .f32 0x00000000#32))

theorem hB_apply (r : Fin 16384) (q : Fin 128) : hB x0 (ix2 r q) = relu (row x0 r) q := by
  unfold hB
  rw [shapeCast_self]
  rfl

/-- The column of row means. -/
def meanB : FVec Ideal S16384x1 .f32 :=
  divf (shapeCast S16384x1 (multiReduction .add [1] S16384 (hB x0) 0x00000000#32 reduces_S16384x128_S16384 (.inl rfl) rfl)
      shapeCasts_S16384_S16384x1) (broadcast S16384x1 (Scalar.ofBits .f32 0x43000000#32))

theorem meanB_apply (r : Fin 16384) (u : Fin 1) : meanB x0 (ix2 r u) = mean (row x0 r) := by
  unfold meanB
  rw [divf_apply, LibKeepdims.shapeCast_a_a1_apply]
  exact congrArg (Ideal.div · (Ideal.ofBits .f32 0x43000000#32))
    ((LibRowStat.sum_lanes_apply (hB x0) 0x00000000#32 reduces_S16384x128_S16384 (.inl rfl) rfl r).trans
      (Finset.sum_congr rfl fun k _ => hB_apply x0 r k))

/-- The centred block. -/
def dB : FVec Ideal S16384x128 .f32 :=
  subf (hB x0) (broadcastTo S16384x128 (meanB x0) broadcasts_S16384x1_S16384x128)

theorem dB_apply (r : Fin 16384) (q : Fin 128) : dB x0 (ix2 r q) = centred (row x0 r) q := by
  unfold dB
  rw [subf_apply, LibRowStat.broadcastTo_a1_ab_apply, hB_apply, meanB_apply]
  rfl

/-- The column of row variances. -/
def varB : FVec Ideal S16384x1 .f32 :=
  divf (shapeCast S16384x1 (multiReduction .add [1] S16384 (mulf (dB x0) (dB x0)) 0x00000000#32 reduces_S16384x128_S16384 (.inl rfl) rfl)
      shapeCasts_S16384_S16384x1) (broadcast S16384x1 (Scalar.ofBits .f32 0x43000000#32))

theorem varB_apply (r : Fin 16384) (u : Fin 1) : varB x0 (ix2 r u) = var (row x0 r) := by
  unfold varB
  rw [divf_apply, LibKeepdims.shapeCast_a_a1_apply]
  exact congrArg (Ideal.div · (Ideal.ofBits .f32 0x43000000#32))
    ((LibRowStat.sum_lanes_apply (mulf (dB x0) (dB x0)) 0x00000000#32 reduces_S16384x128_S16384 (.inl rfl) rfl r).trans
      (Finset.sum_congr rfl fun k _ => by rw [mulf_apply, dB_apply]))

/-- The normalised, scaled and shifted block. -/
def normB : FVec Ideal S16384x128 .f32 :=
  addf (mulf (mulf (dB x0) (broadcastTo S16384x128 (rsqrt (addf (varB x0) (broadcast S16384x1 (Scalar.ofBits .f32 0x3727C5AC#32))))
        broadcasts_S16384x1_S16384x128))
      (broadcastTo S16384x128 (shapeCast S1x128 x1 shapeCasts_S128_S1x128) broadcasts_S1x128_S16384x128))
    (broadcastTo S16384x128 (shapeCast S1x128 x2 shapeCasts_S128_S1x128) broadcasts_S1x128_S16384x128)

theorem normB_apply (r : Fin 16384) (q : Fin 128) :
    normB x0 x1 x2 (ix2 r q) = normed (row x0 r) (fun k => x1 (ix1 k)) (fun k => x2 (ix1 k)) q := by
  unfold normB
  rw [addf_apply, mulf_apply, mulf_apply, dB_apply, LibRowStat.broadcastTo_a1_ab_apply,
    broadcastTo_1b_ab_apply, broadcastTo_1b_ab_apply, shapeCast_a_1a_apply, shapeCast_a_1a_apply]
  show _ * Ideal.rsqrt (varB x0 (ix2 r (0 : Fin 1)) + _) * _ + _ = _
  rw [varB_apply]
  rfl

/-! ## The contraction of the weight row with the block's rows -/

theorem lhs_w_0 (j : S1x16384.Idx) (k : dot_S1x128_S16384x128_S1x16384_1_1_0_0_n_n.contr.Idx) : (dot_S1x128_S16384x128_S1x16384_1_1_0_0_n_n.lhsIdx j k 0).val = (j 0).val := by
  unfold DotDims.lhsIdx
  rw [dif_neg (show ¬(0 : Fin S1x128.rank) ∈ dot_S1x128_S16384x128_S1x16384_1_1_0_0_n_n.lhsBatch by decide),
    dif_pos (show (0 : Fin S1x128.rank) ∈ dot_S1x128_S16384x128_S1x16384_1_1_0_0_n_n.lhsNonContracting by decide)]
  rfl
theorem lhs_w_1 (j : S1x16384.Idx) (k : dot_S1x128_S16384x128_S1x16384_1_1_0_0_n_n.contr.Idx) : (dot_S1x128_S16384x128_S1x16384_1_1_0_0_n_n.lhsIdx j k 1).val = (k ⟨0, by decide⟩).val :=
  dot_S1x128_S16384x128_S1x16384_1_1_0_0_n_n.lhsIdx_val_of_single rfl j k
theorem rhs_w_0 (j : S1x16384.Idx) (k : dot_S1x128_S16384x128_S1x16384_1_1_0_0_n_n.contr.Idx) : (dot_S1x128_S16384x128_S1x16384_1_1_0_0_n_n.rhsIdx j k 0).val = (j 1).val := by
  unfold DotDims.rhsIdx
  rw [dif_neg (show ¬(0 : Fin S16384x128.rank) ∈ dot_S1x128_S16384x128_S1x16384_1_1_0_0_n_n.rhsBatch by decide),
    dif_pos (show (0 : Fin S16384x128.rank) ∈ dot_S1x128_S16384x128_S1x16384_1_1_0_0_n_n.rhsNonContracting by decide)]
  rfl
theorem rhs_w_1 (j : S1x16384.Idx) (k : dot_S1x128_S16384x128_S1x16384_1_1_0_0_n_n.contr.Idx) : (dot_S1x128_S16384x128_S1x16384_1_1_0_0_n_n.rhsIdx j k 1).val = (k ⟨0, by decide⟩).val :=
  dot_S1x128_S16384x128_S1x16384_1_1_0_0_n_n.rhsIdx_val_of_single rfl j k

/-- A [1, 128] row times the transpose of a [16384, 128] block into the zero accumulator: entry (0, r) is the sum over the
    lane of the row's entry times the block's entry in row r. -/
theorem dot_w_apply (l : FVec Ideal S1x128 .bf16) (b : FVec Ideal S16384x128 .bf16) (r : Fin 16384) :
    matmul dot_S1x128_S16384x128_S1x16384_1_1_0_0_n_n none l b (constant S1x16384 .f32 0x00000000#32) (ix2 (0 : Fin 1) r)
      = ∑ k : Fin 128, l (ix2 (0 : Fin 1) k) * b (ix2 r k) := by
  refine (Ideal.matmul_constant_zero_apply dot_S1x128_S16384x128_S1x16384_1_1_0_0_n_n none l b (ix2 (0 : Fin 1) r)).trans ?_
  rw [← Equiv.sum_comp (contrEquiv1 dot_S1x128_S16384x128_S1x16384_1_1_0_0_n_n 128 rfl rfl).symm]
  refine Finset.sum_congr rfl fun k _ => ?_
  have hk := contrEquiv1_symm_val dot_S1x128_S16384x128_S1x16384_1_1_0_0_n_n 128 rfl rfl k
  have el : dot_S1x128_S16384x128_S1x16384_1_1_0_0_n_n.lhsIdx (ix2 (0 : Fin 1) r) ((contrEquiv1 dot_S1x128_S16384x128_S1x16384_1_1_0_0_n_n 128 rfl rfl).symm k) = ix2 (0 : Fin 1) k :=
    funext fun a => Fin.ext (by
      match a with
      | ⟨0, _⟩ => exact lhs_w_0 _ _
      | ⟨1, _⟩ => exact (lhs_w_1 _ _).trans hk)
  have er : dot_S1x128_S16384x128_S1x16384_1_1_0_0_n_n.rhsIdx (ix2 (0 : Fin 1) r) ((contrEquiv1 dot_S1x128_S16384x128_S1x16384_1_1_0_0_n_n 128 rfl rfl).symm k) = ix2 r k :=
    funext fun a => Fin.ext (by
      match a with
      | ⟨0, _⟩ => exact rhs_w_0 _ _
      | ⟨1, _⟩ => exact (rhs_w_1 _ _).trans hk)
  rw [el, er]

/-! ## The stored row -/

/-- The body's payload is the contraction of the weight row with the normalised block, plus the offset broadcast. -/
theorem pay_eq : k0_pay1 (F := Ideal) x0 x1 x2 x3 x4
    = addf (matmul dot_S1x128_S16384x128_S1x16384_1_1_0_0_n_n none (shapeCast S1x128 x3 shapeCasts_S1x128_S1x128) (truncf .bf16 (normB x0 x1 x2) bitsLt_bf16_f32)
        (constant S1x16384 .f32 0x00000000#32))
      (broadcastTo S1x16384 (shapeCast S1x1 x4 shapeCasts_S1_S1x1) broadcasts_S1x1_S1x16384) := rfl

/-- Entry `(0, r)` of the stored row is the score of row `r` of the block. -/
theorem pay_apply (r : Fin 16384) :
    k0_pay1 (F := Ideal) x0 x1 x2 x3 x4 (ix2 (0 : Fin 1) r)
      = score (row x0 r) (fun k => x1 (ix1 k)) (fun k => x2 (ix1 k)) (fun k => x3 (ix2 (0 : Fin 1) k)) (x4 (ix1 (0 : Fin 1))) := by
  rw [pay_eq, addf_apply, dot_w_apply, shapeCast_self, LibRowStat.broadcastTo_a1_ab_apply, LibKeepdims.shapeCast_a_a1_apply,
    ← score_comm]
  exact congrArg (· + _) (Finset.sum_congr rfl fun k _ => by rw [truncf_apply, normB_apply])

end Cert.KernelIdeal.Body

end
-- ==== Proof.KernelPre.lean ====
/-
  The kernel's host side before the call, read at an index.

  Before the call the host contracts the node features with the first and the second 128-row block of the weight matrix (two
  [100000, 128] tables), takes each table's rows at the edges' first and second node numbers, adds the two, adds each of the three
  scores times its row of the weight matrix (rows 256, 257, 258) and the bias row. Entry (e, q) is the pre-activation of edge e at
  lane q. Taking a table's row ρ and then lane q gives the contraction of the node features' row ρ with column q of the block:
  rows are taken after the contraction here and before it in the reference, which is the same thing.
  The array is then padded below with zero rows to 1015808 rows; a row below 1000000 is unchanged.
-/
import proofs.«175787_j61503931678932_2_alg».proof.Proof.Gen.KernelIdeal
import proofs.«175787_j61503931678932_2_alg».proof.Proof.EdgePre
import proofs.«175787_j61503931678932_2_alg».proof.Proof.LibGatherRows
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.ValueIdx Cert.KernelIdeal Cert.EdgeRow Cert.LibGatherRows

open Cert.KernelIdeal.Facts₀

variable (x0 : FVec Ideal S100000x128 .f32) (x8 : FVec Ideal S259x128 .f32) (x9 : FVec Ideal S128 .f32)
  (Rr Rc : IVec S1000000x1 32) (C B P : FVec Ideal S1000000 .f32)

/-! ## A plain [100000, 128] × [128, 128] product -/

theorem lhs_k_0 (j : S100000x128.Idx) (k : dot_S100000x128_S128x128_S100000x128_1_0_0_1_n_n.contr.Idx) : (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs_k_1 (j : S100000x128.Idx) (k : dot_S100000x128_S128x128_S100000x128_1_0_0_1_n_n.contr.Idx) : (dot_S100000x128_S128x128_S100000x128_1_0_0_1_n_n.lhsIdx j k 1).val = (k ⟨0, by decide⟩).val :=
  dot_S100000x128_S128x128_S100000x128_1_0_0_1_n_n.lhsIdx_val_of_single rfl j k
theorem rhs_k_0 (j : S100000x128.Idx) (k : dot_S100000x128_S128x128_S100000x128_1_0_0_1_n_n.contr.Idx) : (dot_S100000x128_S128x128_S100000x128_1_0_0_1_n_n.rhsIdx j k 0).val = (k ⟨0, by decide⟩).val :=
  dot_S100000x128_S128x128_S100000x128_1_0_0_1_n_n.rhsIdx_val_of_single rfl j k
theorem rhs_k_1 (j : S100000x128.Idx) (k : dot_S100000x128_S128x128_S100000x128_1_0_0_1_n_n.contr.Idx) : (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- Entry `(n, q)` of the product is the sum over the lane `c` of the left row's entry times the right column's. -/
theorem dot_k_apply (l : FVec Ideal S100000x128 .f32) (r : FVec Ideal S128x128 .f32) (n : Fin 100000) (q : Fin 128) :
    Host.dotGeneral dot_S100000x128_S128x128_S100000x128_1_0_0_1_n_n none l r (ix2 n q) = ∑ c : Fin 128, l (ix2 n c) * r (ix2 c q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n q) ((contrEquiv1 dot_S100000x128_S128x128_S100000x128_1_0_0_1_n_n 128 rfl rfl).symm k) = ix2 n k :=
    funext fun a => Fin.ext (by
      match a with
      | ⟨0, _⟩ => exact lhs_k_0 _ _
      | ⟨1, _⟩ => exact (lhs_k_1 _ _).trans hk)
  have er : dot_S100000x128_S128x128_S100000x128_1_0_0_1_n_n.rhsIdx (ix2 n q) ((contrEquiv1 dot_S100000x128_S128x128_S100000x128_1_0_0_1_n_n 128 rfl rfl).symm k) = ix2 k q :=
    funext fun a => Fin.ext (by
      match a with
      | ⟨0, _⟩ => exact (rhs_k_0 _ _).trans hk
      | ⟨1, _⟩ => exact rhs_k_1 _ _)
  rw [el, er]

/-! ## The two tables -/

/-- The node features contracted with rows 0 … 127 of the weight matrix. -/
def tabA : FVec Ideal S100000x128 .bf16 :=
  truncf .bf16 (Host.dotGeneral dot_S100000x128_S128x128_S100000x128_1_0_0_1_n_n none x0 (extractStridedSlice S128x128 ![0, 0] x8 slices_S259x128_S128x128_0_0))
    bitsLt_bf16_f32

/-- The node features contracted with rows 128 … 255 of the weight matrix. -/
def tabB : FVec Ideal S100000x128 .bf16 :=
  truncf .bf16 (Host.dotGeneral dot_S100000x128_S128x128_S100000x128_1_0_0_1_n_n none x0 (extractStridedSlice S128x128 ![128, 0] x8 slices_S259x128_S128x128_128_0))
    bitsLt_bf16_f32

theorem tabA_at (n : Fin 100000) (q : Fin 128) :
    tabA x0 x8 (ix2 n q) = ∑ c : Fin 128, x0 (ix2 n c) * x8 (ix2 (⟨c.val, by omega⟩ : Fin 259) q) := by
  unfold tabA
  rw [truncf_apply, dot_k_apply]
  refine Finset.sum_congr rfl fun c _ => congrArg (x0 (ix2 n c) * ·) ?_
  exact extractStridedSlice_apply ![0, 0] x8 slices_S259x128_S128x128_0_0 (ix2 c q) (ix2 (⟨c.val, by omega⟩ : Fin 259) q)
    (fun a => match a with
      | ⟨0, _⟩ => by show c.val = 0 + c.val; omega
      | ⟨1, _⟩ => by show q.val = 0 + q.val; omega)

theorem tabB_at (n : Fin 100000) (q : Fin 128) :
    tabB x0 x8 (ix2 n q) = ∑ c : Fin 128, x0 (ix2 n c) * x8 (ix2 (⟨128 + c.val, by omega⟩ : Fin 259) q) := by
  unfold tabB
  rw [truncf_apply, dot_k_apply]
  refine Finset.sum_congr rfl fun c _ => congrArg (x0 (ix2 n c) * ·) ?_
  exact extractStridedSlice_apply ![128, 0] x8 slices_S259x128_S128x128_128_0 (ix2 c q) (ix2 (⟨128 + c.val, by omega⟩ : Fin 259) q)
    (fun a => match a with
      | ⟨0, _⟩ => rfl
      | ⟨1, _⟩ => by show q.val = 0 + q.val; omega)

/-! ## A score against its row of the weight matrix -/

/-- A per-edge score laid down the rows and across the 128 lanes. -/
def scol (s : FVec Ideal S1000000 .f32) : FVec Ideal S1000000x128 .f32 :=
  broadcastInDim S1000000x128 ![0, 1] bcast_S1000000x1_S1000000x128_0_1
    (broadcastInDim S1000000x1 ![0] bcast_S1000000_S1000000x1_0 s)

theorem scol_at (s : FVec Ideal S1000000 .f32) (e : Fin 1000000) (q : Fin 128) : scol s (ix2 e q) = s (ix1 e) := by
  unfold scol
  rw [broadcastInDim_apply ![0, 1] bcast_S1000000x1_S1000000x128_0_1 _ (ix2 e q) (ix2 e (0 : Fin 1))
      (fun a => match a with
        | ⟨0, _⟩ => rfl
        | ⟨1, _⟩ => rfl),
    broadcastInDim_apply ![0] bcast_S1000000_S1000000x1_0 s (ix2 e (0 : Fin 1)) (ix1 e)
      (fun a => match a with
        | ⟨0, _⟩ => rfl)]

/-- One [128] row laid across every edge. -/
def lanes (v : FVec Ideal S128 .f32) : FVec Ideal S1000000x128 .f32 :=
  broadcastInDim S1000000x128 ![0, 1] bcast_S1x128_S1000000x128_0_1 (broadcastInDim S1x128 ![1] bcast_S128_S1x128_1 v)

theorem lanes_at (v : FVec Ideal S128 .f32) (e : Fin 1000000) (q : Fin 128) : lanes v (ix2 e q) = v (ix1 q) := by
  unfold lanes
  rw [broadcastInDim_apply ![0, 1] bcast_S1x128_S1000000x128_0_1 _ (ix2 e q) (ix2 (0 : Fin 1) q)
      (fun a => match a with
        | ⟨0, _⟩ => rfl
        | ⟨1, _⟩ => rfl),
    broadcastInDim_apply ![1] bcast_S128_S1x128_1 v (ix2 (0 : Fin 1) q) (ix1 q)
      (fun a => match a with
        | ⟨0, _⟩ => rfl)]

/-- Rows 256, 257 and 258 of the weight matrix as [128] vectors. -/
def wrow256 : FVec Ideal S128 .f32 := shapeCast S128 (extractStridedSlice S1x128 ![256, 0] x8 slices_S259x128_S1x128_256_0) shapeCasts_S1x128_S128
def wrow257 : FVec Ideal S128 .f32 := shapeCast S128 (extractStridedSlice S1x128 ![257, 0] x8 slices_S259x128_S1x128_257_0) shapeCasts_S1x128_S128
def wrow258 : FVec Ideal S128 .f32 := shapeCast S128 (extractStridedSlice S1x128 ![258, 0] x8 slices_S259x128_S1x128_258_0) shapeCasts_S1x128_S128

theorem wrow256_at (q : Fin 128) : wrow256 x8 (ix1 q) = x8 (ix2 (⟨256, by omega⟩ : Fin 259) q) := by
  unfold wrow256
  rw [shapeCast_1a_a_apply]
  exact extractStridedSlice_apply ![256, 0] x8 slices_S259x128_S1x128_256_0 (ix2 (0 : Fin 1) q) (ix2 (⟨256, by omega⟩ : Fin 259) q)
    (fun a => match a with
      | ⟨0, _⟩ => rfl
      | ⟨1, _⟩ => by show q.val = 0 + q.val; omega)
theorem wrow257_at (q : Fin 128) : wrow257 x8 (ix1 q) = x8 (ix2 (⟨257, by omega⟩ : Fin 259) q) := by
  unfold wrow257
  rw [shapeCast_1a_a_apply]
  exact extractStridedSlice_apply ![257, 0] x8 slices_S259x128_S1x128_257_0 (ix2 (0 : Fin 1) q) (ix2 (⟨257, by omega⟩ : Fin 259) q)
    (fun a => match a with
      | ⟨0, _⟩ => rfl
      | ⟨1, _⟩ => by show q.val = 0 + q.val; omega)
theorem wrow258_at (q : Fin 128) : wrow258 x8 (ix1 q) = x8 (ix2 (⟨258, by omega⟩ : Fin 259) q) := by
  unfold wrow258
  rw [shapeCast_1a_a_apply]
  exact extractStridedSlice_apply ![258, 0] x8 slices_S259x128_S1x128_258_0 (ix2 (0 : Fin 1) q) (ix2 (⟨258, by omega⟩ : Fin 259) q)
    (fun a => match a with
      | ⟨0, _⟩ => rfl
      | ⟨1, _⟩ => by show q.val = 0 + q.val; omega)

/-! ## The pre-activations -/

/-- The node table has rows. -/
theorem nodes_pos : 0 < 100000 := by omega

/-- The [1000000, 128] array of pre-activations the host hands to the call (before padding). -/
def gArr : FVec Ideal S1000000x128 .bf16 :=
  truncf .bf16
    (addf (addf (addf (addf (addf
      (extf .f32 (Host.gather gather_S100000x128_S1000000x1_S1000000x128_1_0_n_n_0_1_1128 (tabA x0 x8) Rr) bitsLt_bf16_f32)
      (extf .f32 (Host.gather gather_S100000x128_S1000000x1_S1000000x128_1_0_n_n_0_1_1128 (tabB x0 x8) Rc) bitsLt_bf16_f32))
      (mulf (scol C) (lanes (wrow256 x8))))
      (mulf (scol B) (lanes (wrow257 x8))))
      (mulf (scol P) (lanes (wrow258 x8))))
      (lanes x9))
    bitsLt_bf16_f32

theorem gArr_at (e : Fin 1000000) (q : Fin 128) :
    gArr x0 x8 x9 Rr Rc C B P (ix2 e q)
      = preact (fun c => x0 (ix2 (rowOf nodes_pos Rr e) c)) (fun c => x0 (ix2 (rowOf nodes_pos Rc e) c))
          (C (ix1 e)) (B (ix1 e)) (P (ix1 e)) (fun k => x8 (ix2 k q)) (x9 (ix1 q)) := by
  unfold gArr
  rw [truncf_apply, addf_apply, addf_apply, addf_apply, addf_apply, addf_apply, extf_apply, extf_apply,
    mulf_apply, mulf_apply, mulf_apply, scol_at, scol_at, scol_at, lanes_at, lanes_at, lanes_at, lanes_at,
    wrow256_at, wrow257_at, wrow258_at]
  have hA := (gather_rows_apply nodes_pos gather_S100000x128_S1000000x1_S1000000x128_1_0_n_n_0_1_1128.wf (tabA x0 x8) Rr e q).trans (tabA_at x0 x8 (rowOf nodes_pos Rr e) q)
  have hB := (gather_rows_apply nodes_pos gather_S100000x128_S1000000x1_S1000000x128_1_0_n_n_0_1_1128.wf (tabB x0 x8) Rc e q).trans (tabB_at x0 x8 (rowOf nodes_pos Rc e) q)
  unfold preact
  exact congrArg₂ (· + ·) (congrArg₂ (· + ·) (congrArg₂ (· + ·) (congrArg₂ (· + ·) (congrArg₂ (· + ·) hA hB) rfl) rfl) rfl) rfl

/-! ## The zero rows below -/

/-- The pre-activations padded below with a constant to 1015808 rows: a row below 1000000 is the array's own. -/
theorem pad_at (g : FVec Ideal S1000000x128 .bf16) (z : FVec Ideal S_ .bf16) (e : Fin 1000000) (q : Fin 128) :
    pad S1015808x128 ![0, 0] ![15808, 0] ![0, 0] g z pads_S1000000x128_S1015808x128_0158080_000 h_S_
        (ix2 (⟨e.val, by omega⟩ : Fin 1015808) q) = g (ix2 e q) := by
  unfold pad
  have he := e.isLt
  have hq := q.isLt
  rw [dif_pos (fun a => match a with
    | ⟨0, _⟩ => ⟨Nat.zero_le _, by show (e.val - 0) % (0 + 1) = 0; omega, by show (e.val - 0) / (0 + 1) < 1000000; omega⟩
    | ⟨1, _⟩ => ⟨Nat.zero_le _, by show (q.val - 0) % (0 + 1) = 0; omega, by show (q.val - 0) / (0 + 1) < 128; omega⟩)]
  exact congrArg g (funext fun a => Fin.ext (by
    match a with
    | ⟨0, _⟩ => show (e.val - 0) / (0 + 1) = e.val; omega
    | ⟨1, _⟩ => show (q.val - 0) / (0 + 1) = q.val; omega))

end Cert.KernelIdeal.Host

end
-- ==== Proof.KernelValue.lean ====
/-
  The kernel program's result, read off its run.

  The call works through 62 grid points. At point t it stages rows 16384·t … 16384·t + 16383 of the padded pre-activations
  (all 128 lanes), the whole of γ, β, the weight row and the offset, and writes back entries 16384·t … 16384·t + 16383 of a
  [1, 1015808] row: entry (0, i) is the score of row i of the padded pre-activations. The 62 blocks tile the row, so after
  the call the whole row is that function. The host then drops the unit axis and keeps the first 1000000 entries, where the
  padded pre-activations are the unpadded ones: the result at edge e is the score of edge e's pre-activations.
-/
import proofs.«175787_j61503931678932_2_alg».proof.Proof.Gen.KernelIdeal.Frame
import proofs.«175787_j61503931678932_2_alg».proof.Proof.KernelBody
import proofs.«175787_j61503931678932_2_alg».proof.Proof.KernelPre
import proofs.«175787_j61503931678932_2_alg».proof.Proof.RefResult
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.EdgeRow
open Idealize.ShloMosaic.Pipeline (Dat)

variable (m : (ℓ : Loc nD τ sig) → Buf (Elt Ideal) ℓ) (ρ : Dev nD → PrngReg)

/-! ## What the call leaves in its output row -/

theorem hz2 : (![0, 0] : Fin 2 → Nat) = fun _ => 0 := funext fun a => by fin_cases a <;> rfl
theorem hz1 : (![0] : Fin 1 → Nat) = fun _ => 0 := funext fun a => by fin_cases a <;> rfl

/-- Entry `(0, i)` is the score of row `i` of the padded pre-activations `g`. -/
def rowScores (g : FVec Ideal S1015808x128 .bf16) (γ β : FVec Ideal S128 .f32) (w : FVec Ideal S1x128 .bf16)
    (b : FVec Ideal S1 .f32) : FVec Ideal S1x1015808 .f32 := fun i =>
  score (fun q => g (ix2 (⟨(i 1).val, idx2_lt1 i⟩ : Fin 1015808) q)) (fun k => γ (ix1 k)) (fun k => β (ix1 k))
    (fun k => w (ix2 (0 : Fin 1) k)) (b (ix1 (0 : Fin 1)))

/-- The printed index maps over the grid: the pre-activations' block and the output's block move with the point, the other
    windows stay. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = t.val :=
  (by decide +kernel : ∀ t : Fin grid0.N, _)

/-- What point `t` writes back is block `t` of the row of scores of the arrays the call finds. -/
theorem flushed_eq (c : Dev nD) (t : Fin cfg0.N) :
    (dats m 0 c).flushed 5 t = ((cfg0.win 5).blk t).view.read (Elt Ideal)
      (rowScores (V m c main_v117) (V m c main_arg10) (V m c main_arg11) (V m c main_v119) (V m c main_arg13)) := by
  show (cfg0.win 5).cut (grid0.coords t) ((dats m 0 c).after 5 t) = _
  rw [after0_5]
  unfold out0_5
  rw [View.canon_unit_zero hz2]
  simp only [View.ld_unit_zero (S := S16384x128) hz2, View.ld_unit_zero (S := S128) hz1, View.ld_unit_zero (S := S1x128) hz2,
    View.ld_unit_zero (S := S1) hz1]
  obtain ⟨e0, e1, e2, e3, e4, e5, e6, e7, e8⟩ := idx_facts t
  funext j
  obtain ⟨u, r, rfl⟩ : ∃ (u : Fin 1) (r : Fin 16384), j = ix2 u r := ⟨j 0, j 1, eq_ix2 j⟩
  obtain rfl : u = 0 := Subsingleton.elim _ _
  show k0_pay1 (iblk m c 0 t) (iblk m c 1 t) (iblk m c 2 t) (iblk m c 3 t) (iblk m c 4 t) (ix2 (0 : Fin 1) r)
    = rowScores (V m c main_v117) (V m c main_arg10) (V m c main_arg11) (V m c main_v119) (V m c main_arg13)
        (((cfg0.win 5).blk t).view.emb (ix2 (0 : Fin 1) r))
  refine (Body.pay_apply (iblk m c 0 t) (iblk m c 1 t) (iblk m c 2 t) (iblk m c 3 t) (iblk m c 4 t) r).trans ?_
  unfold rowScores
  have h5 : ((((cfg0.win 5).blk t).view.emb (ix2 (0 : Fin 1) r)) 1).val = t.val * 16384 + r.val := by
    show win0_5.index t (1 : Fin 2) * 16384 + 1 * r.val = _
    omega
  have ha : Body.row (iblk m c 0 t) r = fun q => V m c main_v117
      (ix2 (⟨((((cfg0.win 5).blk t).view.emb (ix2 (0 : Fin 1) r)) 1).val, idx2_lt1 _⟩ : Fin 1015808) q) := by
    funext q
    show V m c main_v117 (((cfg0.win 0).blk t).view.emb (ix2 r q)) = _
    refine congrArg (V m c main_v117) (funext fun a => Fin.ext ?_)
    match a with
    | ⟨0, _⟩ =>
      show win0_0.index t (0 : Fin 2) * 16384 + 1 * r.val = ((((cfg0.win 5).blk t).view.emb (ix2 (0 : Fin 1) r)) 1).val
      rw [h5]; omega
    | ⟨1, _⟩ => show win0_0.index t (1 : Fin 2) * 128 + 1 * q.val = q.val; omega
  have hb : (fun k : Fin 128 => iblk m c 1 t (ix1 k)) = fun k => V m c main_arg10 (ix1 k) := by
    funext k
    show V m c main_arg10 (((cfg0.win 1).blk t).view.emb (ix1 k)) = _
    refine congrArg (V m c main_arg10) (funext fun a => Fin.ext ?_)
    match a with
    | ⟨0, _⟩ => show win0_1.index t (0 : Fin 1) * 128 + 1 * k.val = k.val; omega
  have hc : (fun k : Fin 128 => iblk m c 2 t (ix1 k)) = fun k => V m c main_arg11 (ix1 k) := by
    funext k
    show V m c main_arg11 (((cfg0.win 2).blk t).view.emb (ix1 k)) = _
    refine congrArg (V m c main_arg11) (funext fun a => Fin.ext ?_)
    match a with
    | ⟨0, _⟩ => show win0_2.index t (0 : Fin 1) * 128 + 1 * k.val = k.val; omega
  have hd : (fun k : Fin 128 => iblk m c 3 t (ix2 (0 : Fin 1) k)) = fun k => V m c main_v119 (ix2 (0 : Fin 1) k) := by
    funext k
    show V m c main_v119 (((cfg0.win 3).blk t).view.emb (ix2 (0 : Fin 1) k)) = _
    refine congrArg (V m c main_v119) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  have he : iblk m c 4 t (ix1 (0 : Fin 1)) = V m c main_arg13 (ix1 (0 : Fin 1)) := by
    show V m c main_arg13 (((cfg0.win 4).blk t).view.emb (ix1 (0 : Fin 1))) = _
    refine congrArg (V m c main_arg13) (funext fun a => Fin.ext ?_)
    match a with
    | ⟨0, _⟩ => show win0_4.index t (0 : Fin 1) * 1 + 1 * 0 = 0; omega
  rw [ha, hb, hc, hd, he]

/-- An index of the output row is in point `t`'s block iff each coordinate is in the block's range on its axis. -/
theorem mem_blk (t : Fin cfg0.N) (i : S1x1015808.Idx) :
    i ∈ ((cfg0.win 5).blk t).view.set ↔ ∀ a : Fin 2, win0_5.index t a * S1x16384.size a ≤ (i a).val
      ∧ (i a).val < win0_5.index t a * S1x16384.size a + S1x16384.size a := by
  show i ∈ ((View.whole main_v120).slice (win0_5.rect t)).set ↔ _
  rw [View.set_slice_whole, Rect.mem_set_unit]
  exact Iff.rfl

/-- Every index of the output row is in the block of the point its column falls in: column `i` in point `i / 16384`. -/
theorem covered (i : S1x1015808.Idx) :
    ∃ t : Fin cfg0.N, (cfg0.win 5).flush t = true ∧ i ∈ ((cfg0.win 5).blk t).view.set := by
  have hi0 : (i 0).val < 1 := (i 0).isLt
  have hi1 : (i 1).val < 1015808 := (i 1).isLt
  have hN : grid0.N = 62 := N_0
  have ht : (i 1).val / 16384 < cfg0.N := by show _ < grid0.N; rw [hN]; omega
  obtain ⟨e0, e1, e2, e3, e4, e5, e6, e7, e8⟩ := idx_facts ⟨(i 1).val / 16384, ht⟩
  refine ⟨⟨(i 1).val / 16384, ht⟩, flush0_5 _, ?_⟩
  rw [mem_blk]
  intro a
  match a with
  | ⟨0, _⟩ =>
    show win0_5.index ⟨(i 1).val / 16384, ht⟩ (0 : Fin 2) * 1 ≤ (i 0).val
      ∧ (i 0).val < win0_5.index ⟨(i 1).val / 16384, ht⟩ (0 : Fin 2) * 1 + 1
    omega
  | ⟨1, _⟩ =>
    show win0_5.index ⟨(i 1).val / 16384, ht⟩ (1 : Fin 2) * 16384 ≤ (i 1).val
      ∧ (i 1).val < win0_5.index ⟨(i 1).val / 16384, ht⟩ (1 : Fin 2) * 16384 + 16384
    have e8' : win0_5.index ⟨(i 1).val / 16384, ht⟩ (1 : Fin 2) = (i 1).val / 16384 := e8
    omega

/-- The output row after the call: the row of scores of the arrays the call finds. -/
theorem row_after (c : Dev nD) :
    (dats m 0 c).arrAt 5 cfg0.N
      = rowScores (V m c main_v117) (V m c main_arg10) (V m c main_arg11) (V m c main_v119) (V m c main_arg13) :=
  (dats m 0 c).arrAt_eq_of_cover 5 _ (fun t _ => flushed_eq m c t) covered

/-! ## The arrays the call finds -/

/-- The weight row the call finds: the [128, 1] weight column laid as a row. -/
theorem found_w (c : Dev nD) :
    V m c main_v119
      = (truncf (F := Ideal) .bf16 (shapeCast S1x128 (m ((c : Thread nD τ).loc main_arg12)) Facts₀.shapeCasts_S128x1_S1x128) Facts₀.bitsLt_bf16_f32 :
          FVec Ideal S1x128 .bf16) := by
  dsimp only [V, V0]
  simp only [hostOps0, hostOps0_1, hostOps0_2, List.flatten_cons, List.flatten_nil, List.append_nil, List.cons_append,
    List.nil_append]
  after_results_simp <;> rfl

set_option maxRecDepth 16384 in
set_option maxHeartbeats 58000000 in
/-- The pre-activations the call finds: the host's array of pre-activations of the inputs, padded below. The edges' node
    numbers and their three scores enter as the reference's stages of the same inputs: the two programs compute them by the
    same operations, line for line. -/
theorem found_g (c : Dev nD) :
    V m c main_v117
      = (pad S1015808x128 ![0, 0] ![15808, 0] ![0, 0]
          (Host.gArr (m ((c : Thread nD τ).loc main_arg0)) (m ((c : Thread nD τ).loc main_arg8)) (m ((c : Thread nD τ).loc main_arg9))
        (Cert.ReferenceIdeal.Read.val_main_v71 (F := Ideal) (m ((c : Thread nD τ).loc main_arg1))) (Cert.ReferenceIdeal.Read.val_main_v78 (F := Ideal) (m ((c : Thread nD τ).loc main_arg1)))
        (Cert.ReferenceIdeal.Read.val_main_v30 (F := Ideal) (m ((c : Thread nD τ).loc main_arg1)) (m ((c : Thread nD τ).loc main_arg5)) (m ((c : Thread nD τ).loc main_arg6)) (m ((c : Thread nD τ).loc main_arg7)))
        (Cert.ReferenceIdeal.Read.val_main_v47 (F := Ideal) (m ((c : Thread nD τ).loc main_arg1)) (m ((c : Thread nD τ).loc main_arg2)) (m ((c : Thread nD τ).loc main_arg3)))
        (Cert.ReferenceIdeal.Read.val_main_v65 (F := Ideal) (m ((c : Thread nD τ).loc main_arg1)) (m ((c : Thread nD τ).loc main_arg4))))
          (sitofp (F := Ideal) .bf16 (constantI S_ 32 0#32)) Facts₀.pads_S1000000x128_S1015808x128_0158080_000 Facts₀.h_S_ :
          FVec Ideal S1015808x128 .bf16) := by
  dsimp only [V, V0]
  simp only [hostOps0, hostOps0_1, hostOps0_2, List.flatten_cons, List.flatten_nil, List.append_nil, List.cons_append,
    List.nil_append]
  after_results_simp <;> rfl

/-! ## The host operations after the call -/

/-- The result buffer after the program: the output row with its unit axis dropped, its first 1000000 entries. -/
theorem tail_eq (c : Dev nD) (G : FVec Ideal S1x1015808 .f32) (hG : (dats m 0 c).arrAt 5 cfg0.N = G) :
    Pipeline.afterTail₀ cfgs (dats m) 0 (V0 m) [hostOps1] c main_v122
      = (extractStridedSlice S1000000 ![0] (shapeCast S1015808 G Facts₀.shapeCasts_S1x1015808_S1015808)
          Facts₀.slices_S1015808_S1000000_0 : FVec Ideal S1000000 .f32) := by
  unfold Pipeline.afterTail₀
  show StableHlo.after hostOps1 _ (Proc.devRef .tc main_v122) = _
  after_results
  have hw : Pipeline.withArrays (cfgs 0).spec c (V0 m c) (fun w => (dats m 0 c).arrAt w (cfgs 0).N)
      (Proc.tc.devRef main_v120) = G :=
    (Pipeline.withArrays_arr spec0 launch0.win.arr_inj c _ _ 5).trans hG
  rw [hw]
  rfl

/-- Entry `e` of the result is entry `(0, e)` of the output row. -/
theorem tail_at (G : FVec Ideal S1x1015808 .f32) (e : Fin 1000000) :
    extractStridedSlice S1000000 ![0] (shapeCast S1015808 G Facts₀.shapeCasts_S1x1015808_S1015808)
        Facts₀.slices_S1015808_S1000000_0 (ix1 e)
      = G (ix2 (0 : Fin 1) (⟨e.val, by omega⟩ : Fin 1015808)) := by
  rw [extractStridedSlice_apply ![0] _ Facts₀.slices_S1015808_S1000000_0 (ix1 e) (ix1 (⟨e.val, by omega⟩ : Fin 1015808))
      (fun a => match a with
        | ⟨0, _⟩ => by show e.val = 0 + e.val; omega)]
  exact shapeCast_1a_a_apply G Facts₀.shapeCasts_S1x1015808_S1015808 ⟨e.val, by omega⟩

/-- A [128, 1] column read as a [1, 128] row: entry `(0, k)` of the row is entry `(k, 0)` of the column. -/
theorem col_as_row (x : FVec Ideal S128x1 .f32) (k : Fin 128) :
    shapeCast S1x128 x Facts₀.shapeCasts_S128x1_S1x128 (ix2 (0 : Fin 1) k) = x (ix2 k (0 : Fin 1)) :=
  shapeCast_apply x _ _ _ (by
    rw [Shape.rowMajor_val_two, Shape.rowMajor_val_two]
    show k.val * 1 + 0 = 0 * 128 + k.val
    omega)

/-- The score is a function of its five arguments. -/
theorem score_congr {x x' γ γ' β β' w w' : Fin 128 → EReal} {b b' : EReal} (h1 : x = x') (h2 : γ = γ') (h3 : β = β')
    (h4 : w = w') (h5 : b = b') : score x γ β w b = score x' γ' β' w' b' := by
  subst h1 h2 h3 h4 h5; rfl

/-- THE KERNEL PROGRAM'S RESULT is the function both programs compute. -/
theorem result_eq (c : Dev nD) :
    (extractStridedSlice S1000000 ![0] (shapeCast S1015808 (rowScores (V m c main_v117) (V m c main_arg10) (V m c main_arg11) (V m c main_v119) (V m c main_arg13)) Facts₀.shapeCasts_S1x1015808_S1015808)
        Facts₀.slices_S1015808_S1000000_0 : FVec Ideal S1000000 .f32)
      = (Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  funext i
  obtain ⟨e, rfl⟩ : ∃ e : Fin 1000000, i = ix1 e := ⟨i 0, eq_ix1 i⟩
  rw [tail_at]
  unfold rowScores Cert.ReferenceIdeal.RefValue.result
  refine score_congr (funext fun q => ?_) (funext fun k => ?_) (funext fun k => ?_) (funext fun k => ?_) ?_
  · rw [found_g]
    exact (Host.pad_at _ _ e q).trans (Host.gArr_at _ _ _ _ _ _ _ _ e q)
  · rw [V_main_arg10]
  · rw [V_main_arg11]
  · rw [found_w, truncf_apply]
    exact col_as_row _ k
  · rw [V_main_arg13]

/-! ## The run -/

/-- Every weakly fair execution of the kernel program terminates with the result buffer at the common function of the
    inputs and the inputs unchanged. -/
theorem run : θ_run defs (onTc (τ := τ) (main (F := Ideal))) ⟨m, fun _ => 0, ρ⟩ (fun r => ∀ c : Dev nD,
      r.2.mem ((c.tc : Thread nD τ).loc main_v122) = (Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      (((h c).2 main_v122 (Pipeline.mem_restRefs_of main_v122 (by decide) (by decide))).trans
        (tail_eq m c _ (row_after m c))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 1).trans (((dats m 0 c).arrAt_in 1 rfl _).trans ((A_eq m c 1).trans (V_main_arg10 m c))),
      ((h c).1 2).trans (((dats m 0 c).arrAt_in 2 rfl _).trans ((A_eq m c 2).trans (V_main_arg11 m c))),
      ((h c).2 main_arg12 (Pipeline.mem_restRefs_of main_arg12 (by decide) (by decide))).trans (W_main_arg12 m (dats m) c),
      ((h c).1 4).trans (((dats m 0 c).arrAt_in 4 rfl _).trans ((A_eq m c 4).trans (V_main_arg13 m c)))⟩)
    (run_main m ρ)

end Cert.KernelIdeal.KValue

end
-- ==== Proof.lean ====
/-
  An edge decoder of a graph network: for each of 1000000 candidate edges (pairs of node numbers into 100000 nodes with 128
  features each) a score. An edge's inputs are its two nodes' feature rows and three per-edge scores computed from the nodes'
  onsets, durations and pitches; a first linear layer (a [259, 128] weight matrix and a bias) gives 128 pre-activations, which
  are rectified, normalised over the 128 lanes, scaled and shifted, and contracted with a second weight vector plus an offset.

  The reference lays the 259 inputs of every edge side by side and contracts them with the weight matrix. The kernel program
  contracts the node features with the matrix's two 128-row blocks once per NODE, takes the resulting rows per edge, and adds
  the three score terms and the bias; the layer normalisation and the last contraction then run in a kernel over blocks of
  16384 edges, on an array padded to 62 blocks, and the padding is dropped at the end.

  At the ideal values (extended reals, exact operations, format changes the identity) the two are one function of the inputs:
  taking a row of a table commutes with a contraction done row by row; the sum over the 259 inputs is the sum over the two
  blocks of 128 plus the three last terms — a regrouping in a commutative monoid, valid at the infinities too; the last
  contraction has its factors in the other order, and multiplication commutes. No input needs to be finite for this.
  The three frames are the generated ones (the reference's from its generated run); the idealization rewrote nothing.
-/
import proofs.«175787_j61503931678932_2_alg».proof.Defs
import proofs.«175787_j61503931678932_2_alg».proof.Proof.Gen.Kernel
import proofs.«175787_j61503931678932_2_alg».proof.Proof.Gen.Kernel.Skeleton
import proofs.«175787_j61503931678932_2_alg».proof.Proof.Gen.Kernel.Launch
import proofs.«175787_j61503931678932_2_alg».proof.Proof.Gen.Kernel.Points
import proofs.«175787_j61503931678932_2_alg».proof.Proof.Gen.Kernel.Frame
import proofs.«175787_j61503931678932_2_alg».proof.Proof.Gen.KernelIdeal
import proofs.«175787_j61503931678932_2_alg».proof.Proof.Gen.KernelIdeal.Skeleton
import proofs.«175787_j61503931678932_2_alg».proof.Proof.Gen.KernelIdeal.Launch
import proofs.«175787_j61503931678932_2_alg».proof.Proof.Gen.KernelIdeal.Points
import proofs.«175787_j61503931678932_2_alg».proof.Proof.Gen.KernelIdeal.Frame
import proofs.«175787_j61503931678932_2_alg».proof.Proof.Gen.ReferenceIdeal
import proofs.«175787_j61503931678932_2_alg».proof.Proof.Gen.Pre_finite_inputs
import proofs.«175787_j61503931678932_2_alg».proof.Proof.Gen.ReferenceIdeal.Run
import proofs.«175787_j61503931678932_2_alg».proof.Proof.Gen.ReferenceIdeal.Read
import proofs.«175787_j61503931678932_2_alg».proof.Proof.RefResult
import proofs.«175787_j61503931678932_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to the end without a fault and leaves its inputs as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the fourteen inputs both idealized programs end with the same scores: the kernel program's
    run and the reference's run both end at the one function of the inputs. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v117_eq, Cert.ReferenceIdeal.RefValue.v117_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
